-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x256x6 : Shape := ⟨3, ![2, 256, 6]⟩
abbrev S2x256x256x2 : Shape := ⟨4, ![2, 256, 256, 2]⟩
abbrev S_ : Shape := ⟨0, ![]⟩

class Facts : Prop where
  bcast_S_S2x256x6 : S_.BroadcastsInDim S2x256x6 (![] : Fin 0 → Fin S2x256x6.rank)
  reducesTo_S2x256x6_S_d0_1_2 : S2x256x6.ReducesTo [0, 1, 2] S_
  h_S_ : 0 < S_.numel
  bcast_S_S2x256x256x2 : S_.BroadcastsInDim S2x256x256x2 (![] : Fin 0 → Fin S2x256x256x2.rank)
  reducesTo_S2x256x256x2_S_d0_1_2_3 : S2x256x256x2.ReducesTo [0, 1, 2, 3] S_

variable [Facts]

def fn {F : FTy → Type} [FloatOps F] (main_arg0 : FVec F S2x256x6 .f32) (main_arg1 : FVec F S2x256x256x2 .f32) : IVec S_ 1 :=
  let main_v0 : FVec F S2x256x6 .f32 := Host.absf main_arg0
  let main_cst : FVec F S_ .f32 := constant S_ .f32 0x7F800000#32
  let main_v1 : FVec F S2x256x6 .f32 := broadcastInDim S2x256x6 ![] bcast_S_S2x256x6 main_cst
  let main_v2 : IVec S2x256x6 1 := cmpf .olt main_v0 main_v1
  let main_c : IVec S_ 1 := constantI S_ 1 1#1
  let main_v3 : IVec S_ 1 := (fun x v => Host.reduce IntOp.andi x v reducesTo_S2x256x6_S_d0_1_2 h_S_) main_v2 main_c
  let main_v4 : FVec F S2x256x256x2 .f32 := Host.absf main_arg1
  let main_cst_0 : FVec F S_ .f32 := constant S_ .f32 0x7F800000#32
  let main_v5 : FVec F S2x256x256x2 .f32 := broadcastInDim S2x256x256x2 ![] bcast_S_S2x256x256x2 main_cst_0
  let main_v6 : IVec S2x256x256x2 1 := cmpf .olt main_v4 main_v5
  let main_c_1 : IVec S_ 1 := constantI S_ 1 1#1
  let main_v7 : IVec S_ 1 := (fun x v => Host.reduce IntOp.andi x v reducesTo_S2x256x256x2_S_d0_1_2_3 h_S_) main_v6 main_c_1
  let main_v8 : IVec S_ 1 := andi main_v3 main_v7
  main_v8
-- ==== Kernel.lean ====
abbrev S2x256x6 : Shape := ⟨3, ![2, 256, 6]⟩
abbrev S2x256x256x2 : Shape := ⟨4, ![2, 256, 256, 2]⟩
abbrev S1x16x128x2 : Shape := ⟨4, ![1, 16, 128, 2]⟩
abbrev S1x256x6 : Shape := ⟨3, ![1, 256, 6]⟩
abbrev S16x128x2 : Shape := ⟨3, ![16, 128, 2]⟩
abbrev S256x6 : Shape := ⟨2, ![256, 6]⟩
abbrev S256x1 : Shape := ⟨2, ![256, 1]⟩
abbrev S256 : Shape := ⟨1, ![256]⟩
abbrev S16x128x1 : Shape := ⟨3, ![16, 128, 1]⟩
abbrev S16x128 : Shape := ⟨2, ![16, 128]⟩
abbrev S1x1x256 : Shape := ⟨3, ![1, 1, 256]⟩
abbrev S16x128x256 : Shape := ⟨3, ![16, 128, 256]⟩

abbrev nBuf : Space → Nat
  | .hbm => 3
  | .vmem => 6
  | .smem => 0
  | _ => 0

abbrev bufTy : (tb : Table) → Fin (tcTables nBuf tb) → BufTy
  | .hbm, ⟨0, _⟩ => ⟨S2x256x6, .f32⟩
  | .hbm, ⟨1, _⟩ => ⟨S2x256x256x2, .f32⟩
  | .hbm, ⟨2, _⟩ => ⟨S2x256x256x2, .f32⟩
  | .local _ .vmem, ⟨0, _⟩ => ⟨S1x16x128x2, .f32⟩
  | .local _ .vmem, ⟨1, _⟩ => ⟨S1x16x128x2, .f32⟩
  | .local _ .vmem, ⟨2, _⟩ => ⟨S1x256x6, .f32⟩
  | .local _ .vmem, ⟨3, _⟩ => ⟨S1x256x6, .f32⟩
  | .local _ .vmem, ⟨4, _⟩ => ⟨S1x16x128x2, .f32⟩
  | .local _ .vmem, ⟨5, _⟩ => ⟨S1x16x128x2, .f32⟩
  | _, _ => ⟨S2x256x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 2], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x16x128x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x16x128x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  inb_S1x16x128x2_S1x16x128x2_0_0_0_0 : ∀ a, (![0, 0, 0, 0] : Fin 4 → Nat) a + S1x16x128x2.size a ≤ S1x16x128x2.size a
  h_S1x16x128x2 : 0 < S1x16x128x2.numel
  shapeCasts_S1x16x128x2_S16x128x2 : S1x16x128x2.ShapeCasts S16x128x2
  inb_S1x256x6_S1x256x6_0_0_0 : ∀ a, (![0, 0, 0] : Fin 3 → Nat) a + S1x256x6.size a ≤ S1x256x6.size a
  h_S1x256x6 : 0 < S1x256x6.numel
  shapeCasts_S1x256x6_S256x6 : S1x256x6.ShapeCasts S256x6
  slices_S256x6_o0_0_S256x1 : S256x6.Slices ![0, 0] S256x1
  shapeCasts_S256x1_S256 : S256x1.ShapeCasts S256
  slices_S256x6_o0_1_S256x1 : S256x6.Slices ![0, 1] S256x1
  slices_S256x6_o0_2_S256x1 : S256x6.Slices ![0, 2] S256x1
  slices_S256x6_o0_3_S256x1 : S256x6.Slices ![0, 3] S256x1
  slices_S256x6_o0_4_S256x1 : S256x6.Slices ![0, 4] S256x1
  slices_S256x6_o0_5_S256x1 : S256x6.Slices ![0, 5] S256x1
  slices_S16x128x2_o0_0_0_S16x128x1 : S16x128x2.Slices ![0, 0, 0] S16x128x1
  shapeCasts_S16x128x1_S16x128 : S16x128x1.ShapeCasts S16x128
  slices_S16x128x2_o0_0_1_S16x128x1 : S16x128x2.Slices ![0, 0, 1] S16x128x1
  shapeCasts_S16x128_S16x128x1 : S16x128.ShapeCasts S16x128x1
  shapeCasts_S256_S1x1x256 : S256.ShapeCasts S1x1x256
  broadcasts_S16x128x1_S16x128x256 : S16x128x1.Broadcasts S16x128x256
  broadcasts_S1x1x256_S16x128x256 : S1x1x256.Broadcasts S16x128x256
  reduces_S16x128x256_S16x128 : S16x128x256.Reduces [2] S16x128
  concatenates_S16x128x1_S16x128x1_S16x128x2_d2 : Shape.Concatenates [S16x128x1, S16x128x1] S16x128x2 2
  shapeCasts_S16x128x2_S1x16x128x2 : S16x128x2.ShapeCasts S1x16x128x2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x128x2.size a ≤ S2x256x256x2.size a
  hwx0_0 : ∀ i : grid0.Coords, EltTy.bits .f32 = 32 ∨ (Rect.block (s := S2x256x256x2) S1x16x128x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x6.size a ≤ S2x256x6.size a
  hwx0_1 : ∀ i : grid0.Coords, EltTy.bits .f32 = 32 ∨ (Rect.block (s := S2x256x6) S1x256x6.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x128x2.size a ≤ S2x256x256x2.size a
  hwx0_2 : ∀ i : grid0.Coords, EltTy.bits .f32 = 32 ∨ (Rect.block (s := S2x256x256x2) S1x16x128x2.size (cc0_transform_2 i) (hinb0_2 i)).WholeWords (EltTy.packing .f32)

variable [Facts₀]

abbrev win0_0 : Pipeline.Window sig grid0 :=
  Pipeline.Window.ofSpec (Memref.whole main_arg1) S1x16x128x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x256x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16x128x2.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x256x6 : Shape := ⟨3, ![2, 256, 6]⟩
abbrev S2x256x256x2 : Shape := ⟨4, ![2, 256, 256, 2]⟩
abbrev S2x256x1 : Shape := ⟨3, ![2, 256, 1]⟩
abbrev S2x256 : Shape := ⟨2, ![2, 256]⟩
abbrev S2x256x2 : Shape := ⟨3, ![2, 256, 2]⟩
abbrev S2x256x256x1x2 : Shape := ⟨5, ![2, 256, 256, 1, 2]⟩
abbrev S2x1x1x256x2 : Shape := ⟨5, ![2, 1, 1, 256, 2]⟩
abbrev S2x256x256x256x2 : Shape := ⟨5, ![2, 256, 256, 256, 2]⟩
abbrev S_ : Shape := ⟨0, ![]⟩
abbrev S2x256x256x256 : Shape := ⟨4, ![2, 256, 256, 256]⟩
abbrev S2x1x1x256 : Shape := ⟨4, ![2, 1, 1, 256]⟩
abbrev S2x256x256x256x1 : Shape := ⟨5, ![2, 256, 256, 256, 1]⟩
abbrev S2x256x256 : Shape := ⟨3, ![2, 256, 256]⟩
abbrev S2x256x256x1 : Shape := ⟨4, ![2, 256, 256, 1]⟩

abbrev nBuf : Space → Nat
  | .hbm => 67
  | .vmem => 0
  | .smem => 0
  | _ => 0

abbrev bufTy : (tb : Table) → Fin (tcTables nBuf tb) → BufTy
  | .hbm, ⟨0, _⟩ => ⟨S2x256x6, .f32⟩
  | .hbm, ⟨1, _⟩ => ⟨S2x256x256x2, .f32⟩
  | .hbm, ⟨2, _⟩ => ⟨S2x256x1, .f32⟩
  | .hbm, ⟨3, _⟩ => ⟨S2x256, .f32⟩
  | .hbm, ⟨4, _⟩ => ⟨S2x256x1, .f32⟩
  | .hbm, ⟨5, _⟩ => ⟨S2x256, .f32⟩
  | .hbm, ⟨6, _⟩ => ⟨S2x256x1, .f32⟩
  | .hbm, ⟨7, _⟩ => ⟨S2x256, .f32⟩
  | .hbm, ⟨8, _⟩ => ⟨S2x256x1, .f32⟩
  | .hbm, ⟨9, _⟩ => ⟨S2x256, .f32⟩
  | .hbm, ⟨10, _⟩ => ⟨S2x256x1, .f32⟩
  | .hbm, ⟨11, _⟩ => ⟨S2x256, .f32⟩
  | .hbm, ⟨12, _⟩ => ⟨S2x256x1, .f32⟩
  | .hbm, ⟨13, _⟩ => ⟨S2x256, .f32⟩
  | .hbm, ⟨14, _⟩ => ⟨S2x256x1, .f32⟩
  | .hbm, ⟨15, _⟩ => ⟨S2x256x1, .f32⟩
  | .hbm, ⟨16, _⟩ => ⟨S2x256x2, .f32⟩
  | .hbm, ⟨17, _⟩ => ⟨S2x256x256x1x2, .f32⟩
  | .hbm, ⟨18, _⟩ => ⟨S2x1x1x256x2, .f32⟩
  | .hbm, ⟨19, _⟩ => ⟨S2x256x256x256x2, .f32⟩
  | .hbm, ⟨20, _⟩ => ⟨S2x256x256x256x2, .f32⟩
  | .hbm, ⟨21, _⟩ => ⟨S2x256x256x256x2, .f32⟩
  | .hbm, ⟨22, _⟩ => ⟨S2x256x256x256x2, .f32⟩
  | .hbm, ⟨23, _⟩ => ⟨S_, .f32⟩
  | .hbm, ⟨24, _⟩ => ⟨S2x256x256x256, .f32⟩
  | .hbm, ⟨25, _⟩ => ⟨S2x256, .f32⟩
  | .hbm, ⟨26, _⟩ => ⟨S2x1x1x256, .f32⟩
  | .hbm, ⟨27, _⟩ => ⟨S2x1x1x256, .f32⟩
  | .hbm, ⟨28, _⟩ => ⟨S2x1x1x256, .f32⟩
  | .hbm, ⟨29, _⟩ => ⟨S2x1x1x256, .f32⟩
  | .hbm, ⟨30, _⟩ => ⟨S2x256x256x256, .f32⟩
  | .hbm, ⟨31, _⟩ => ⟨S2x256x256x256, .f32⟩
  | .hbm, ⟨32, _⟩ => ⟨S2x256x256x256, .f32⟩
  | .hbm, ⟨33, _⟩ => ⟨S2x256x256x256, .f32⟩
  | .hbm, ⟨34, _⟩ => ⟨S_, .f32⟩
  | .hbm, ⟨35, _⟩ => ⟨S2x256x256x256, .f32⟩
  | .hbm, ⟨36, _⟩ => ⟨S2x256x256x256, .f32⟩
  | .hbm, ⟨37, _⟩ => ⟨S2x1x1x256, .f32⟩
  | .hbm, ⟨38, _⟩ => ⟨S2x256x256x256, .f32⟩
  | .hbm, ⟨39, _⟩ => ⟨S2x256x256x256, .f32⟩
  | .hbm, ⟨40, _⟩ => ⟨S2x256x256x256, .f32⟩
  | .hbm, ⟨41, _⟩ => ⟨S2x1x1x256, .f32⟩
  | .hbm, ⟨42, _⟩ => ⟨S2x256x256x256, .f32⟩
  | .hbm, ⟨43, _⟩ => ⟨S2x256x256x256, .f32⟩
  | .hbm, ⟨44, _⟩ => ⟨S2x256x256x256, .f32⟩
  | .hbm, ⟨45, _⟩ => ⟨S2x256x256x256, .f32⟩
  | .hbm, ⟨46, _⟩ => ⟨S2x256x256x256, .f32⟩
  | .hbm, ⟨47, _⟩ => ⟨S2x256x256x256, .f32⟩
  | .hbm, ⟨48, _⟩ => ⟨S2x256x256x256, .f32⟩
  | .hbm, ⟨49, _⟩ => ⟨S2x256x256x256, .f32⟩
  | .hbm, ⟨50, _⟩ => ⟨S2x256x256x256, .f32⟩
  | .hbm, ⟨51, _⟩ => ⟨S2x256x256x256, .f32⟩
  | .hbm, ⟨52, _⟩ => ⟨S2x256x256x256, .f32⟩
  | .hbm, ⟨53, _⟩ => ⟨S2x256x256x256x1, .f32⟩
  | .hbm, ⟨54, _⟩ => ⟨S2x256x256x256, .f32⟩
  | .hbm, ⟨55, _⟩ => ⟨S2x256x256x256x1, .f32⟩
  | .hbm, ⟨56, _⟩ => ⟨S2x256x256x256, .f32⟩
  | .hbm, ⟨57, _⟩ => ⟨S2x256x256x256, .f32⟩
  | .hbm, ⟨58, _⟩ => ⟨S_, .f32⟩
  | .hbm, ⟨59, _⟩ => ⟨S2x256x256, .f32⟩
  | .hbm, ⟨60, _⟩ => ⟨S2x256x256x256, .f32⟩
  | .hbm, ⟨61, _⟩ => ⟨S2x256x256x256, .f32⟩
  | .hbm, ⟨62, _⟩ => ⟨S_, .f32⟩
  | .hbm, ⟨63, _⟩ => ⟨S2x256x256, .f32⟩
  | .hbm, ⟨64, _⟩ => ⟨S2x256x256x1, .f32⟩
  | .hbm, ⟨65, _⟩ => ⟨S2x256x256x1, .f32⟩
  | .hbm, ⟨66, _⟩ => ⟨S2x256x256x2, .f32⟩
  | _, _ => ⟨S2x256x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_cst : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_cst_0 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_cst_1 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_cst_2 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩

abbrev nD : Nat := 1
abbrev τ : Topo := Topo.v7x

variable {F : FTy → Type} [FloatOps F]

class Facts₀ : Prop where
  slices_S2x256x6_S2x256x1_0_0_0 : S2x256x6.Slices ![0, 0, 0] S2x256x1
  shapeCasts_S2x256x1_S2x256 : S2x256x1.ShapeCasts S2x256
  slices_S2x256x6_S2x256x1_0_0_1 : S2x256x6.Slices ![0, 0, 1] S2x256x1
  slices_S2x256x6_S2x256x1_0_0_2 : S2x256x6.Slices ![0, 0, 2] S2x256x1
  slices_S2x256x6_S2x256x1_0_0_3 : S2x256x6.Slices ![0, 0, 3] S2x256x1
  slices_S2x256x6_S2x256x1_0_0_4 : S2x256x6.Slices ![0, 0, 4] S2x256x1
  slices_S2x256x6_S2x256x1_0_0_5 : S2x256x6.Slices ![0, 0, 5] S2x256x1
  bcast_S2x256_S2x256x1_0_1 : S2x256.BroadcastsInDim S2x256x1 (![0, 1] : Fin 2 → Fin S2x256x1.rank)
  concatenates_S2x256x1_S2x256x1_S2x256x2_d2 : Shape.Concatenates [S2x256x1, S2x256x1] S2x256x2 2
  bcast_S2x256x256x2_S2x256x256x1x2_0_1_2_4 : S2x256x256x2.BroadcastsInDim S2x256x256x1x2 (![0, 1, 2, 4] : Fin 4 → Fin S2x256x256x1x2.rank)
  bcast_S2x256x2_S2x1x1x256x2_0_3_4 : S2x256x2.BroadcastsInDim S2x1x1x256x2 (![0, 3, 4] : Fin 3 → Fin S2x1x1x256x2.rank)
  bcast_S2x256x256x1x2_S2x256x256x256x2_0_1_2_3_4 : S2x256x256x1x2.BroadcastsInDim S2x256x256x256x2 (![0, 1, 2, 3, 4] : Fin 5 → Fin S2x256x256x256x2.rank)
  bcast_S2x1x1x256x2_S2x256x256x256x2_0_1_2_3_4 : S2x1x1x256x2.BroadcastsInDim S2x256x256x256x2 (![0, 1, 2, 3, 4] : Fin 5 → Fin S2x256x256x256x2.rank)
  reducesTo_S2x256x256x256x2_S2x256x256x256_d4 : S2x256x256x256x2.ReducesTo [4] S2x256x256x256
  h_S_ : 0 < S_.numel
  bcast_S2x256_S2x1x1x256_0_3 : S2x256.BroadcastsInDim S2x1x1x256 (![0, 3] : Fin 2 → Fin S2x1x1x256.rank)
  bcast_S2x1x1x256_S2x256x256x256_0_1_2_3 : S2x1x1x256.BroadcastsInDim S2x256x256x256 (![0, 1, 2, 3] : Fin 4 → Fin S2x256x256x256.rank)
  bcast_S_S2x256x256x256 : S_.BroadcastsInDim S2x256x256x256 (![] : Fin 0 → Fin S2x256x256x256.rank)
  slices_S2x256x256x256x2_S2x256x256x256x1_0_0_0_0_0 : S2x256x256x256x2.Slices ![0, 0, 0, 0, 0] S2x256x256x256x1
  shapeCasts_S2x256x256x256x1_S2x256x256x256 : S2x256x256x256x1.ShapeCasts S2x256x256x256
  slices_S2x256x256x256x2_S2x256x256x256x1_0_0_0_0_1 : S2x256x256x256x2.Slices ![0, 0, 0, 0, 1] S2x256x256x256x1
  reducesTo_S2x256x256x256_S2x256x256_d3 : S2x256x256x256.ReducesTo [3] S2x256x256
  bcast_S2x256x256_S2x256x256x1_0_1_2 : S2x256x256.BroadcastsInDim S2x256x256x1 (![0, 1, 2] : Fin 3 → Fin S2x256x256x1.rank)
  concatenates_S2x256x256x1_S2x256x256x1_S2x256x256x2_d3 : Shape.Concatenates [S2x256x256x1, S2x256x256x1] S2x256x256x2 3

variable [Facts₀]

class Facts : Prop extends Facts₀ where

variable [Facts]
-- ==== Proof.Velocity.lean ====
/-
  The velocity a set of vortex particles induces at a grid of points, as ONE function of the two argument arrays over
  the extended reals, and the three small laws that bring the kernel's and the reference's spellings to it.

  A particle is six numbers `(y, x, tau, sig, c, d)`; a point is `(py, px)`. With `dy = py - y`, `dx = px - x` and the
  squared distance `s = dy² + dx²`, the particle's strength at the point is
    `tau · exp(-s / sig²) · exp(-(c · e)) / √(s + c · e)`   where   `e = exp((-1 · s) / (d · sig²))`,
  and it contributes `strength · dx` to the first velocity component and `strength · (-dy)` to the second. The
  velocity at a point is the sum of the contributions of the 256 particles of the point's batch entry.
  Every operation is the extended reals' own (division, exponential and square root as the ideal instance reads them),
  so nothing here needs the inputs to be finite.
-/
import Idealize.ShloMosaic.PureOps.Ideal
import Idealize.ShloMosaic.PureOps.Ideal.Laws
import Idealize.ShloMosaic.Lib.ValueIdx

noncomputable section

open scoped BigOperators

namespace Cert.VortexVelocity

open Idealize.ShloMosaic Idealize.ShloMosaic.ValueIdx

/-- The float literal `-1.0`, kept as its word: both programs multiply the squared distance by the same literal. -/
abbrev negOne : EReal := Ideal.ofBits .f32 0xBF800000#32

/-- The squared distance between a point and a particle. -/
def sqDist (py px y x : EReal) : EReal := (py - y) * (py - y) + (px - x) * (px - x)

/-- `c · exp((-1 · s) / (d · sig²))`: the term added under the square root and negated inside the exponential. -/
def inner (s sig c d : EReal) : EReal := c * Ideal.exp (Ideal.div (negOne * s) (d * (sig * sig)))

/-- A particle's strength at squared distance `s`. -/
def strength (s tau sig c d : EReal) : EReal :=
  tau * Ideal.exp (Ideal.div (-s) (sig * sig)) * Ideal.div (Ideal.exp (-(inner s sig c d))) (Ideal.sqrt (s + inner s sig c d))

/-- One particle's contribution to velocity component `k` at a point: the strength times `dx` for `k = 0`, times `-dy`
    for `k = 1`. -/
def contrib (k : Fin 2) (py px y x tau sig c d : EReal) : EReal :=
  strength (sqDist py px y x) tau sig c d * (if k.val = 0 then px - x else -(py - y))

/-- The velocity at point `(b, h, w)`, component `k`: the sum over the 256 particles of batch entry `b`. -/
def velocityAt (vf : (⟨3, ![2, 256, 6]⟩ : Shape).Idx → EReal) (pts : (⟨4, ![2, 256, 256, 2]⟩ : Shape).Idx → EReal)
    (b : Fin 2) (h w : Fin 256) (k : Fin 2) : EReal :=
  ∑ p : Fin 256, contrib k (pts (ix4 b h w 0)) (pts (ix4 b h w 1))
    (vf (ix3 b p 0)) (vf (ix3 b p 1)) (vf (ix3 b p 2)) (vf (ix3 b p 3)) (vf (ix3 b p 4)) (vf (ix3 b p 5))

/-- The whole result array. -/
def velocity (vf : (⟨3, ![2, 256, 6]⟩ : Shape).Idx → EReal) (pts : (⟨4, ![2, 256, 256, 2]⟩ : Shape).Idx → EReal) :
    (⟨4, ![2, 256, 256, 2]⟩ : Shape).Idx → EReal :=
  fun i => velocityAt vf pts (i 0) (i 1) (i 2) (i 3)

theorem velocity_ix4 (vf : (⟨3, ![2, 256, 6]⟩ : Shape).Idx → EReal) (pts : (⟨4, ![2, 256, 256, 2]⟩ : Shape).Idx → EReal)
    (b : Fin 2) (h w : Fin 256) (k : Fin 2) : velocity vf pts (ix4 b h w k) = velocityAt vf pts b h w k := rfl

/-! ## The two spellings -/

theorem contrib_zero (py px y x tau sig c d : EReal) :
    contrib 0 py px y x tau sig c d = strength (sqDist py px y x) tau sig c d * (px - x) := by
  unfold contrib; rw [if_pos (show ((0 : Fin 2).val = 0) from rfl)]

theorem contrib_one (py px y x tau sig c d : EReal) :
    contrib 1 py px y x tau sig c d = strength (sqDist py px y x) tau sig c d * -(py - y) := by
  unfold contrib; rw [if_neg (show ¬ ((1 : Fin 2).val = 0) from by decide)]

/-- Subtracting from the zero literal is negating, on every extended real. -/
theorem zeroLit_sub (x : EReal) : Ideal.ofBits .f32 0x00000000#32 - x = -x := by
  rw [Ideal.ofBits_zero_f32, sub_eq_add_neg, zero_add]

/-- The kernel's spelling of the strength: it negates by subtracting from the zero literal, twice. -/
theorem strength_of_kernel (s tau sig c d : EReal) :
    tau * Ideal.exp (Ideal.div (Ideal.ofBits .f32 0x00000000#32 - s) (sig * sig))
        * Ideal.div (Ideal.exp (Ideal.ofBits .f32 0x00000000#32 - c * Ideal.exp (Ideal.div (negOne * s) (d * (sig * sig)))))
            (Ideal.sqrt (s + c * Ideal.exp (Ideal.div (negOne * s) (d * (sig * sig)))))
      = strength s tau sig c d := by
  rw [zeroLit_sub, zeroLit_sub]
  rfl

/-- The reference's spelling: the squared distance is a two-term sum started from the zero literal, and the inner
    exponential's argument is `(-c) · e` where the kernel has `-(c · e)`. -/
theorem strength_of_reference (py px y x tau sig c d : EReal) (s : EReal)
    (hs : s = Ideal.ofBits .f32 0x00000000#32 + ((py - y) * (py - y) + (px - x) * (px - x))) :
    tau * Ideal.exp (Ideal.div (-s) (sig * sig))
        * Ideal.div (Ideal.exp (-c * Ideal.exp (Ideal.div (negOne * s) (d * (sig * sig)))))
            (Ideal.sqrt (s + c * Ideal.exp (Ideal.div (negOne * s) (d * (sig * sig)))))
      = strength (sqDist py px y x) tau sig c d := by
  rw [Ideal.ofBits_zero_f32, zero_add] at hs
  subst hs
  rw [neg_mul]
  rfl

end Cert.VortexVelocity

end
-- ==== Proof.KernelBlock.lean ====
/-
  One block of the kernel, read at an index.

  At a grid point the body holds a block `x0` of points (shape [1, 16, 128, 2]: a 16 × 128 tile of one batch entry,
  two coordinates per point) and the particle table `x1` of the same batch entry (shape [1, 256, 6]). It lays the
  points' coordinates out along a third axis of length 256, the particles' six parameters along the first two, computes
  every (point, particle) pair's contribution elementwise, sums over the particle axis, and stacks the two sums as the
  last axis of the tile it stores. Here each of those steps is read at one index, down to the statement that the
  stored tile at `(0, h, w, k)` is the sum over the 256 particles of `contrib k` of the point `(h, w)` and the
  particle's parameters.
-/
import proofs.«122513_j83434034692735_1_alg».proof.Proof.Gen.KernelIdeal.Skeleton
import proofs.«122513_j83434034692735_1_alg».proof.Proof.Velocity
import Idealize.ShloMosaic.Lib.Pipeline.Value
import Idealize.ShloMosaic.Lib.ValueIdx
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx Cert.VortexVelocity

/-! ## Layout steps, for any element type -/

section Layout
variable {α : Type}

/-- A row of 256 lanes broadcast over the 16 × 128 tile: every point sees lane `p`. -/
theorem bcast_row (u : S1x1x256.Idx → α) (hb : S1x1x256.Broadcasts S16x128x256) (h : Fin 16) (w : Fin 128) (p : Fin 256) :
    broadcastTo S16x128x256 u hb (ix3 h w p) = u (ix3 0 0 p) :=
  broadcastTo_apply u hb (ix3 h w p) (ix3 0 0 p) (fun a => match a with
    | ⟨0, _⟩ => by show 0 = if (1 : Nat) = 1 then 0 else h.val; rw [if_pos rfl]
    | ⟨1, _⟩ => by show 0 = if (1 : Nat) = 1 then 0 else w.val; rw [if_pos rfl]
    | ⟨2, _⟩ => by show p.val = if (256 : Nat) = 1 then 0 else p.val; rw [if_neg (by decide)])

/-- A tile with a unit last axis broadcast along 256 lanes: every lane sees the point's value. -/
theorem bcast_point (u : S16x128x1.Idx → α) (hb : S16x128x1.Broadcasts S16x128x256) (h : Fin 16) (w : Fin 128) (p : Fin 256) :
    broadcastTo S16x128x256 u hb (ix3 h w p) = u (ix3 h w 0) :=
  broadcastTo_apply u hb (ix3 h w p) (ix3 h w 0) (fun a => match a with
    | ⟨0, _⟩ => by show h.val = if (16 : Nat) = 1 then 0 else h.val; rw [if_neg (by decide)]
    | ⟨1, _⟩ => by show w.val = if (128 : Nat) = 1 then 0 else w.val; rw [if_neg (by decide)]
    | ⟨2, _⟩ => by show 0 = if (1 : Nat) = 1 then 0 else p.val; rw [if_pos rfl])

/-- A vector of 256 entries recast as a [1, 1, 256] row. -/
theorem row_of_vec (u : S256.Idx → α) (hc : S256.ShapeCasts S1x1x256) (p : Fin 256) :
    shapeCast S1x1x256 u hc (ix3 0 0 p) = u (ix1 p) :=
  shapeCast_apply u hc (ix3 0 0 p) (ix1 p)
    (by rw [Shape.rowMajor_val_one, Shape.rowMajor_val_three]; show p.val = (0 * 1 + 0) * 256 + p.val; omega)

/-- Column `j` of the particle table, as a vector of 256 entries. -/
theorem particle_col (x1 : S1x256x6.Idx → α) (off : Fin S256x6.rank → Nat) (hs : S256x6.Slices off S256x1)
    (hc1 : S1x256x6.ShapeCasts S256x6) (hc2 : S256x1.ShapeCasts S256) (j : Fin 6) (h0 : off 0 = 0) (h1 : off 1 = j.val)
    (p : Fin 256) :
    shapeCast S256 (extractStridedSlice S256x1 off (shapeCast S256x6 x1 hc1) hs) hc2 (ix1 p) = x1 (ix3 0 p j) := by
  refine (shapeCast_apply _ hc2 (ix1 p) (ix2 p 0)
    (by rw [Shape.rowMajor_val_two, Shape.rowMajor_val_one]; show p.val * 1 + 0 = p.val; omega)).trans ?_
  refine (extractStridedSlice_apply off _ hs (ix2 p 0) (ix2 p j) (fun a => match a with
    | ⟨0, _⟩ => by show p.val = off 0 + p.val; rw [h0]; omega
    | ⟨1, _⟩ => by show j.val = off 1 + 0; rw [h1]; omega)).trans ?_
  exact shapeCast_apply x1 hc1 (ix2 p j) (ix3 0 p j)
    (by rw [Shape.rowMajor_val_three, Shape.rowMajor_val_two]; show (0 * 256 + p.val) * 6 + j.val = p.val * 6 + j.val; omega)

/-- Coordinate `k` of the points of the tile, as a [16, 128, 1] tile. -/
theorem point_coord (x0 : S1x16x128x2.Idx → α) (off : Fin S16x128x2.rank → Nat) (hs : S16x128x2.Slices off S16x128x1)
    (hc1 : S1x16x128x2.ShapeCasts S16x128x2) (hc2 : S16x128x1.ShapeCasts S16x128) (hc3 : S16x128.ShapeCasts S16x128x1)
    (k : Fin 2) (h0 : off 0 = 0) (h1 : off 1 = 0) (h2 : off 2 = k.val) (h : Fin 16) (w : Fin 128) :
    shapeCast S16x128x1 (shapeCast S16x128 (extractStridedSlice S16x128x1 off (shapeCast S16x128x2 x0 hc1) hs) hc2) hc3 (ix3 h w 0)
      = x0 (ix4 0 h w k) := by
  refine (shapeCast_apply _ hc3 (ix3 h w 0) (ix2 h w)
    (by rw [Shape.rowMajor_val_two, Shape.rowMajor_val_three]; show h.val * 128 + w.val = (h.val * 128 + w.val) * 1 + 0; omega)).trans ?_
  refine (shapeCast_apply _ hc2 (ix2 h w) (ix3 h w 0)
    (by rw [Shape.rowMajor_val_three, Shape.rowMajor_val_two]; show (h.val * 128 + w.val) * 1 + 0 = h.val * 128 + w.val; omega)).trans ?_
  refine (extractStridedSlice_apply off _ hs (ix3 h w 0) (ix3 h w k) (fun a => match a with
    | ⟨0, _⟩ => by show h.val = off 0 + h.val; rw [h0]; omega
    | ⟨1, _⟩ => by show w.val = off 1 + w.val; rw [h1]; omega
    | ⟨2, _⟩ => by show k.val = off 2 + 0; rw [h2]; omega)).trans ?_
  exact shapeCast_apply x0 hc1 (ix3 h w k) (ix4 0 h w k)
    (by rw [Shape.rowMajor_val_four, Shape.rowMajor_val_three]
        show ((0 * 16 + h.val) * 128 + w.val) * 2 + k.val = (h.val * 128 + w.val) * 2 + k.val; omega)

end Layout

/-! ## The body's values at an index, on the extended reals -/

variable (x0 : Vec Ideal S1x16x128x2 .f32) (x1 : Vec Ideal S1x256x6 .f32)

/-- `dy`: the point's first coordinate less the particle's. -/
theorem dy_at (h : Fin 16) (w : Fin 128) (p : Fin 256) :
    k0_pay4 x0 x1 (ix3 h w p) = x0 (ix4 0 h w 0) - x1 (ix3 0 p 0) := by
  unfold k0_pay4 k0_pay3 k0_pay2
  show broadcastTo S16x128x256 _ _ (ix3 h w p) - broadcastTo S16x128x256 _ _ (ix3 h w p) = _
  rw [bcast_point, bcast_row, row_of_vec, particle_col x1 _ _ _ _ 0 rfl rfl, point_coord x0 _ _ _ _ _ 0 rfl rfl rfl]

/-- `dx`: the same of the second coordinates. -/
theorem dx_at (h : Fin 16) (w : Fin 128) (p : Fin 256) :
    k0_pay5 x0 x1 (ix3 h w p) = x0 (ix4 0 h w 1) - x1 (ix3 0 p 1) := by
  unfold k0_pay5 k0_pay3 k0_pay2
  show broadcastTo S16x128x256 _ _ (ix3 h w p) - broadcastTo S16x128x256 _ _ (ix3 h w p) = _
  rw [bcast_point, bcast_row, row_of_vec, particle_col x1 _ _ _ _ 1 rfl rfl, point_coord x0 _ _ _ _ _ 1 rfl rfl rfl]

/-- The squared distance. -/
theorem sq_at (h : Fin 16) (w : Fin 128) (p : Fin 256) :
    k0_pay6 x0 x1 (ix3 h w p)
      = sqDist (x0 (ix4 0 h w 0)) (x0 (ix4 0 h w 1)) (x1 (ix3 0 p 0)) (x1 (ix3 0 p 1)) := by
  unfold k0_pay6
  show k0_pay4 x0 x1 (ix3 h w p) * k0_pay4 x0 x1 (ix3 h w p) + k0_pay5 x0 x1 (ix3 h w p) * k0_pay5 x0 x1 (ix3 h w p) = _
  rw [dy_at, dx_at]
  rfl

/-- `sig²`, as a row. -/
theorem sig2_at (p : Fin 256) : k0_pay7 x1 (ix3 0 0 p) = x1 (ix3 0 p 3) * x1 (ix3 0 p 3) := by
  unfold k0_pay7 k0_pay3
  rw [row_of_vec]
  show shapeCast S256 _ _ (ix1 p) * shapeCast S256 _ _ (ix1 p) = _
  rw [particle_col x1 _ _ _ _ 3 rfl rfl]

/-- `c`, as a row. -/
theorem c_at (p : Fin 256) : k0_pay8 x1 (ix3 0 0 p) = x1 (ix3 0 p 4) := by
  unfold k0_pay8 k0_pay3
  rw [row_of_vec, particle_col x1 _ _ _ _ 4 rfl rfl]

/-- `tau`, as a row. -/
theorem tau_at (p : Fin 256) : k0_pay9 x1 (ix3 0 0 p) = x1 (ix3 0 p 2) := by
  unfold k0_pay9 k0_pay3
  rw [row_of_vec, particle_col x1 _ _ _ _ 2 rfl rfl]

/-- The Gaussian factor `exp((0 - s) / sig²)`. -/
theorem gauss_at (h : Fin 16) (w : Fin 128) (p : Fin 256) :
    k0_pay10 x0 x1 (ix3 h w p)
      = Ideal.exp (Ideal.div (Ideal.ofBits .f32 0x00000000#32
            - sqDist (x0 (ix4 0 h w 0)) (x0 (ix4 0 h w 1)) (x1 (ix3 0 p 0)) (x1 (ix3 0 p 1)))
          (x1 (ix3 0 p 3) * x1 (ix3 0 p 3))) := by
  unfold k0_pay10
  show Ideal.exp (Ideal.div (Ideal.ofBits .f32 0x00000000#32 - k0_pay6 x0 x1 (ix3 h w p))
    (broadcastTo S16x128x256 (k0_pay7 x1) _ (ix3 h w p))) = _
  rw [bcast_row, sq_at, sig2_at]

/-- The argument of the inner exponential, `(-1 · s) / (d · sig²)`. -/
theorem innerArg_at (h : Fin 16) (w : Fin 128) (p : Fin 256) :
    k0_pay11 x0 x1 (ix3 h w p)
      = Ideal.div (negOne * sqDist (x0 (ix4 0 h w 0)) (x0 (ix4 0 h w 1)) (x1 (ix3 0 p 0)) (x1 (ix3 0 p 1)))
          (x1 (ix3 0 p 5) * (x1 (ix3 0 p 3) * x1 (ix3 0 p 3))) := by
  unfold k0_pay11 k0_pay3
  show Ideal.div (negOne * k0_pay6 x0 x1 (ix3 h w p)) (broadcastTo S16x128x256 _ _ (ix3 h w p)) = _
  rw [bcast_row, sq_at]
  show Ideal.div _ (shapeCast S1x1x256 _ _ (ix3 0 0 p) * k0_pay7 x1 (ix3 0 0 p)) = _
  rw [row_of_vec, particle_col x1 _ _ _ _ 5 rfl rfl, sig2_at]

/-! ## The sums over the particles, and the stored tile -/

/-- The lane sum over the particle axis, recast with a unit last axis, at a point: the plain sum of the 256 lanes. -/
theorem lane_sum (src : FVec Ideal S16x128x256 .f32) (hr : S16x128x256.Reduces [2] S16x128) (hφ : FKind.Formats .f32)
    (hacc : (0x00000000#32 : BitVec 32) = FKind.add.neutral .f32 hφ) (hc : S16x128.ShapeCasts S16x128x1)
    (h : Fin 16) (w : Fin 128) :
    shapeCast S16x128x1 (multiReduction .add [2] S16x128 src 0x00000000#32 hr hφ hacc) hc (ix3 h w 0)
      = ∑ p : Fin 256, src (ix3 h w p) := by
  refine (shapeCast_apply _ hc (ix3 h w 0) (ix2 h w)
    (by rw [Shape.rowMajor_val_two, Shape.rowMajor_val_three]; show h.val * 128 + w.val = (h.val * 128 + w.val) * 1 + 0; omega)).trans ?_
  refine (Ideal.multiReduction_add_single src _ hr hφ hacc (ix2 h w)).trans ?_
  refine Finset.sum_congr rfl fun p _ => congrArg src ?_
  funext a
  apply Fin.ext
  match a with
  | ⟨0, _⟩ => rfl
  | ⟨1, _⟩ => rfl
  | ⟨2, _⟩ => rfl

/-- What multiplies `dx` (or `0 - dy`) in a pair's contribution, from the seven arrays the body's last part starts from:
    `tau · gaussian · exp(0 - c · exp q) / √(s + c · exp q)`. -/
def weight (s g q : FVec Ideal S16x128x256 .f32) (cc tt : FVec Ideal S1x1x256 .f32) (h : Fin 16) (w : Fin 128) (p : Fin 256) : EReal :=
  tt (ix3 0 0 p) * g (ix3 h w p)
    * Ideal.div (Ideal.exp (Ideal.ofBits .f32 0x00000000#32 - cc (ix3 0 0 p) * Ideal.exp (q (ix3 h w p))))
        (Ideal.sqrt (s (ix3 h w p) + cc (ix3 0 0 p) * Ideal.exp (q (ix3 h w p))))

/-- The first stored component: the sum over the particles of weight times `dx`. -/
theorem stored_zero (a b s : FVec Ideal S16x128x256 .f32) (cc tt : FVec Ideal S1x1x256 .f32) (g q : FVec Ideal S16x128x256 .f32)
    (h : Fin 16) (w : Fin 128) :
    k0_pay1 a b s cc tt g q (ix4 0 h w 0) = ∑ p : Fin 256, weight s g q cc tt h w p * b (ix3 h w p) := by
  unfold k0_pay1
  refine (shapeCast_apply _ _ (ix4 0 h w (0 : Fin 2)) (ix3 h w (0 : Fin 2))
    (by rw [Shape.rowMajor_val_three, Shape.rowMajor_val_four]
        show (h.val * 128 + w.val) * 2 + 0 = ((0 * 16 + h.val) * 128 + w.val) * 2 + 0; omega)).trans ?_
  refine (concatenate_pair_apply_left (t := S16x128x2) (s₁ := S16x128x1) (s₂ := S16x128x1) (2 : Fin 3) _ _ _ (ix3 h w (0 : Fin 2)) rfl (ix3 h w (0 : Fin 1))
    (fun a => by match a with | ⟨0, _⟩ => rfl | ⟨1, _⟩ => rfl | ⟨2, _⟩ => rfl)).trans ?_
  refine (lane_sum _ _ _ _ _ h w).trans (Finset.sum_congr rfl fun p _ => ?_)
  show broadcastTo S16x128x256 tt _ (ix3 h w p) * g (ix3 h w p)
      * Ideal.div (Ideal.exp (Ideal.ofBits .f32 0x00000000#32 - broadcastTo S16x128x256 cc _ (ix3 h w p) * Ideal.exp (q (ix3 h w p))))
          (Ideal.sqrt (s (ix3 h w p) + broadcastTo S16x128x256 cc _ (ix3 h w p) * Ideal.exp (q (ix3 h w p))))
      * b (ix3 h w p) = _
  rw [bcast_row, bcast_row]
  rfl

/-- The second stored component: the sum over the particles of weight times `0 - dy`. -/
theorem stored_one (a b s : FVec Ideal S16x128x256 .f32) (cc tt : FVec Ideal S1x1x256 .f32) (g q : FVec Ideal S16x128x256 .f32)
    (h : Fin 16) (w : Fin 128) :
    k0_pay1 a b s cc tt g q (ix4 0 h w 1)
      = ∑ p : Fin 256, weight s g q cc tt h w p * (Ideal.ofBits .f32 0x00000000#32 - a (ix3 h w p)) := by
  unfold k0_pay1
  refine (shapeCast_apply _ _ (ix4 0 h w (1 : Fin 2)) (ix3 h w (1 : Fin 2))
    (by rw [Shape.rowMajor_val_three, Shape.rowMajor_val_four]
        show (h.val * 128 + w.val) * 2 + 1 = ((0 * 16 + h.val) * 128 + w.val) * 2 + 1; omega)).trans ?_
  refine (concatenate_pair_apply_right (t := S16x128x2) (s₁ := S16x128x1) (s₂ := S16x128x1) (2 : Fin 3) _ _ _ (ix3 h w (1 : Fin 2)) rfl rfl (ix3 h w (0 : Fin 1))
    (fun a ha => by match a with | ⟨0, _⟩ => rfl | ⟨1, _⟩ => rfl | ⟨2, _⟩ => exact absurd rfl ha) rfl).trans ?_
  refine (lane_sum _ _ _ _ _ h w).trans (Finset.sum_congr rfl fun p _ => ?_)
  show broadcastTo S16x128x256 tt _ (ix3 h w p) * g (ix3 h w p)
      * Ideal.div (Ideal.exp (Ideal.ofBits .f32 0x00000000#32 - broadcastTo S16x128x256 cc _ (ix3 h w p) * Ideal.exp (q (ix3 h w p))))
          (Ideal.sqrt (s (ix3 h w p) + broadcastTo S16x128x256 cc _ (ix3 h w p) * Ideal.exp (q (ix3 h w p))))
      * (Ideal.ofBits .f32 0x00000000#32 - a (ix3 h w p)) = _
  rw [bcast_row, bcast_row]
  rfl

/-- THE STORED TILE at `(0, h, w, k)` is the velocity at the point the tile's `(h, w)` stands for, component `k`, whenever
    the points block holds that point's two coordinates (`hx0`) and the particle block holds the parameters of the
    particles of the point's batch entry (`hx1`). -/
theorem tile_at (A0 : S2x256x6.Idx → EReal) (A1 : S2x256x256x2.Idx → EReal) (b : Fin 2) (H W : Fin 256)
    (h : Fin 16) (w : Fin 128) (k : Fin 2)
    (hx0 : ∀ k' : Fin 2, x0 (ix4 0 h w k') = A1 (ix4 b H W k'))
    (hx1 : ∀ (p : Fin 256) (j : Fin 6), x1 (ix3 0 p j) = A0 (ix3 b p j)) :
    k0_pay1 (k0_pay4 x0 x1) (k0_pay5 x0 x1) (k0_pay6 x0 x1) (k0_pay8 x1) (k0_pay9 x1) (k0_pay10 x0 x1) (k0_pay11 x0 x1) (ix4 0 h w k)
      = velocityAt A0 A1 b H W k := by
  unfold velocityAt
  match k with
  | ⟨0, _⟩ =>
    refine (stored_zero _ _ _ _ _ _ _ h w).trans (Finset.sum_congr rfl fun p _ => ?_)
    unfold weight
    rw [tau_at, gauss_at, c_at, innerArg_at, sq_at, dx_at, strength_of_kernel]
    simp only [hx0, hx1]
    exact (contrib_zero _ _ _ _ _ _ _ _).symm
  | ⟨1, _⟩ =>
    refine (stored_one _ _ _ _ _ _ _ h w).trans (Finset.sum_congr rfl fun p _ => ?_)
    unfold weight
    rw [tau_at, gauss_at, c_at, innerArg_at, sq_at, dy_at, strength_of_kernel, zeroLit_sub]
    simp only [hx0, hx1]
    exact (contrib_one _ _ _ _ _ _ _ _).symm

end Cert.KernelIdeal.BlockValue

end
-- ==== Proof.KernelArray.lean ====
/-
  From the tiles to the whole array.

  The grid has 2 × 16 × 2 points; point `(b, i, j)` reads the 16 × 128 tile of points at rows `16 i …`, columns
  `128 j …` of batch entry `b`, reads the whole particle table of batch entry `b`, and writes the tile of the result
  at the same place. So what a point writes back is the velocity array restricted to its tile, the 64 tiles cover
  the result array, and the array after the run is the velocity array of the two arguments.
-/
import proofs.«122513_j83434034692735_1_alg».proof.Proof.Gen.KernelIdeal.Value
import proofs.«122513_j83434034692735_1_alg».proof.Proof.KernelBlock

noncomputable section

namespace Cert.KernelIdeal.ArrayValue

open Cert.KernelIdeal Cert.KernelIdeal.Gen Idealize.ShloMosaic Idealize.ShloMosaic.TcCoe Idealize.SL.Sem
open Idealize.ShloMosaic.ValueIdx Cert.VortexVelocity
open Idealize.ShloMosaic.Pipeline (Dat)

variable (m : (ℓ : Loc nD τ sig) → Buf (Elt Ideal) ℓ) (ρ : Dev nD → PrngReg)

theorem zero_offsets4 : (![0, 0, 0, 0] : Fin 4 → Nat) = fun _ => 0 := funext fun a => by fin_cases a <;> rfl
theorem zero_offsets3 : (![0, 0, 0] : Fin 3 → Nat) = fun _ => 0 := funext fun a => by fin_cases a <;> rfl

/-- The three index maps, decided over the 64 grid points: the points window moves with the output window, the
    particle window follows the batch coordinate only, and the output's block indices stay in their ranges. -/
theorem index_facts : ∀ t : Fin cfg0.N,
    win0_0.index t (0 : Fin 4) = win0_2.index t (0 : Fin 4)
    ∧ win0_0.index t (1 : Fin 4) = win0_2.index t (1 : Fin 4)
    ∧ win0_0.index t (2 : Fin 4) = win0_2.index t (2 : Fin 4)
    ∧ win0_0.index t (3 : Fin 4) = 0
    ∧ win0_2.index t (3 : Fin 4) = 0
    ∧ win0_1.index t (0 : Fin 3) = win0_2.index t (0 : Fin 4)
    ∧ win0_1.index t (1 : Fin 3) = 0
    ∧ win0_1.index t (2 : Fin 3) = 0
    ∧ win0_2.index t (0 : Fin 4) ≤ 1
    ∧ win0_2.index t (1 : Fin 4) ≤ 15
    ∧ win0_2.index t (2 : Fin 4) ≤ 1 :=
  (by decide +kernel : ∀ t : Fin grid0.N, _)

/-- Every tile of the result is some grid point's. -/
theorem index_onto : ∀ (q0 : Fin 2) (q1 : Fin 16) (q2 : Fin 2), ∃ t : Fin cfg0.N, win0_2.index t = ![q0.val, q1.val, q2.val, 0] :=
  (by decide +kernel : ∀ (q0 : Fin 2) (q1 : Fin 16) (q2 : Fin 2), ∃ t : Fin grid0.N, win0_2.index t = ![q0.val, q1.val, q2.val, 0])

/-- WHAT POINT `t` WRITES BACK is its tile of the velocity array of the two argument arrays. -/
theorem flushed_eq (c : Dev nD) (t : Fin cfg0.N) :
    (dats m 0 c).flushed 2 t
      = ((cfg0.win 2).blk t).view.read (Elt Ideal) (velocity (V m c main_arg0) (V m c main_arg1)) := by
  rw [Value.flushed2]
  unfold out0_2
  rw [View.canon_unit_zero zero_offsets4]
  simp only [View.ld_unit_zero (S := S1x16x128x2) zero_offsets4, View.ld_unit_zero (S := S1x256x6) zero_offsets3]
  obtain ⟨e0, e1, e2, e3, e4, e5, e6, e7, e8, e9, e10⟩ := index_facts t
  funext j
  obtain ⟨z, h, w, k, rfl⟩ : ∃ (z : Fin 1) (h : Fin 16) (w : Fin 128) (k : Fin 2), j = ix4 z h w k :=
    ⟨j 0, j 1, j 2, j 3, eq_ix4 j⟩
  obtain rfl : z = 0 := Subsingleton.elim _ _
  -- the array index under the tile index
  have hemb : ((cfg0.win 2).blk t).view.emb (ix4 (0 : Fin 1) h w k)
      = ix4 (⟨win0_2.index t (0 : Fin 4), by omega⟩ : Fin 2) (⟨win0_2.index t (1 : Fin 4) * 16 + h.val, by have := h.isLt; omega⟩ : Fin 256)
          (⟨win0_2.index t (2 : Fin 4) * 128 + w.val, by have := w.isLt; omega⟩ : Fin 256) k := by
    funext a
    apply Fin.ext
    match a with
    | ⟨0, _⟩ => show win0_2.index t (0 : Fin 4) * 1 + 1 * 0 = win0_2.index t (0 : Fin 4); omega
    | ⟨1, _⟩ => show win0_2.index t (1 : Fin 4) * 16 + 1 * h.val = win0_2.index t (1 : Fin 4) * 16 + h.val; omega
    | ⟨2, _⟩ => show win0_2.index t (2 : Fin 4) * 128 + 1 * w.val = win0_2.index t (2 : Fin 4) * 128 + w.val; omega
    | ⟨3, _⟩ => show win0_2.index t (3 : Fin 4) * 2 + 1 * k.val = k.val; omega
  show k0_pay1 (k0_pay4 (iblk m c 0 t) (iblk m c 1 t)) (k0_pay5 (iblk m c 0 t) (iblk m c 1 t)) (k0_pay6 (iblk m c 0 t) (iblk m c 1 t))
      (k0_pay8 (iblk m c 1 t)) (k0_pay9 (iblk m c 1 t)) (k0_pay10 (iblk m c 0 t) (iblk m c 1 t)) (k0_pay11 (iblk m c 0 t) (iblk m c 1 t))
      (ix4 (0 : Fin 1) h w k)
    = velocity (V m c main_arg0) (V m c main_arg1) (((cfg0.win 2).blk t).view.emb (ix4 (0 : Fin 1) h w k))
  rw [hemb, velocity_ix4]
  refine BlockValue.tile_at (iblk m c 0 t) (iblk m c 1 t) (V m c main_arg0) (V m c main_arg1) _ _ _ h w k ?_ ?_
  · -- the points block holds the point's two coordinates
    intro k'
    show V m c main_arg1 (((cfg0.win 0).blk t).view.emb (ix4 (0 : Fin 1) h w k')) = V m c main_arg1 _
    refine congrArg (V m c main_arg1) (funext fun a => Fin.ext ?_)
    match a with
    | ⟨0, _⟩ => show win0_0.index t (0 : Fin 4) * 1 + 1 * 0 = win0_2.index t (0 : Fin 4); omega
    | ⟨1, _⟩ => show win0_0.index t (1 : Fin 4) * 16 + 1 * h.val = win0_2.index t (1 : Fin 4) * 16 + h.val; omega
    | ⟨2, _⟩ => show win0_0.index t (2 : Fin 4) * 128 + 1 * w.val = win0_2.index t (2 : Fin 4) * 128 + w.val; omega
    | ⟨3, _⟩ => show win0_0.index t (3 : Fin 4) * 2 + 1 * k'.val = k'.val; omega
  · -- the particle block holds the batch entry's table
    intro p j
    show V m c main_arg0 (((cfg0.win 1).blk t).view.emb (ix3 (0 : Fin 1) p j)) = V m c main_arg0 _
    refine congrArg (V m c main_arg0) (funext fun a => Fin.ext ?_)
    match a with
    | ⟨0, _⟩ => show win0_1.index t (0 : Fin 3) * 1 + 1 * 0 = win0_2.index t (0 : Fin 4); omega
    | ⟨1, _⟩ => show win0_1.index t (1 : Fin 3) * 256 + 1 * p.val = p.val; omega
    | ⟨2, _⟩ => show win0_1.index t (2 : Fin 3) * 6 + 1 * j.val = j.val; omega

/-- An index of the result array is in point `t`'s tile iff each coordinate is in the tile's range on its axis. -/
theorem mem_tile (t : Fin cfg0.N) (i : S2x256x256x2.Idx) :
    i ∈ ((cfg0.win 2).blk t).view.set ↔ ∀ a : Fin 4, win0_2.index t a * S1x16x128x2.size a ≤ (i a).val
      ∧ (i a).val < win0_2.index t a * S1x16x128x2.size a + S1x16x128x2.size a := by
  show i ∈ ((View.whole main_v0).slice (win0_2.rect t)).set ↔ _
  rw [View.set_slice_whole, Rect.mem_set_unit]
  exact Iff.rfl

/-- The tiles cover the result array: the point that covers `(b, r, s, k)` is `(b, r / 16, s / 128)`. -/
theorem covered (i : S2x256x256x2.Idx) :
    ∃ t : Fin cfg0.N, (cfg0.win 2).flush t = true ∧ i ∈ ((cfg0.win 2).blk t).view.set := by
  have hi0 : (i 0).val < 2 := (i 0).isLt
  have hi1 : (i 1).val < 256 := (i 1).isLt
  have hi2 : (i 2).val < 256 := (i 2).isLt
  have hi3 : (i 3).val < 2 := (i 3).isLt
  obtain ⟨t, ht⟩ := index_onto ⟨(i 0).val, by omega⟩ ⟨(i 1).val / 16, by omega⟩ ⟨(i 2).val / 128, by omega⟩
  have q0 : win0_2.index t (0 : Fin 4) = (i 0).val := congrFun ht 0
  have q1 : win0_2.index t (1 : Fin 4) = (i 1).val / 16 := congrFun ht 1
  have q2 : win0_2.index t (2 : Fin 4) = (i 2).val / 128 := congrFun ht 2
  have q3 : win0_2.index t (3 : Fin 4) = 0 := congrFun ht 3
  refine ⟨t, flush0_2 t, ?_⟩
  rw [mem_tile]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 16 ≤ (i 1).val ∧ (i 1).val < win0_2.index t (1 : Fin 4) * 16 + 16; omega
  | ⟨2, _⟩ => show win0_2.index t (2 : Fin 4) * 128 ≤ (i 2).val ∧ (i 2).val < win0_2.index t (2 : Fin 4) * 128 + 128; omega
  | ⟨3, _⟩ => show win0_2.index t (3 : Fin 4) * 2 ≤ (i 3).val ∧ (i 3).val < win0_2.index t (3 : Fin 4) * 2 + 2; omega

/-- THE RESULT ARRAY after the run is the velocity array of the two arguments. -/
theorem final (c : Dev nD) :
    (dats m 0 c).arrAt 2 cfg0.N
      = velocity (m ((c : Thread nD τ).loc main_arg0)) (m ((c : Thread nD τ).loc main_arg1)) :=
  (dats m 0 c).arrAt_eq_of_cover 2 _ (fun t _ => flushed_eq m c t) covered

/-- The kernel's run: it terminates with the result array at the velocity array and the arguments unchanged. -/
theorem run : θ_run defs (onTc (τ := τ) (main (F := Ideal))) ⟨m, fun _ => 0, ρ⟩ fun r => ∀ c : Dev nD,
      r.2.mem ((c : Thread nD τ).loc main_v0)
          = velocity (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrayValue

end
-- ==== Proof.RefValue.lean ====
/-
  The reference program, read at an index.

  The reference lays every (point, particle) pair out on a [2, 256, 256, 256] array (batch entry, point row, point
  column, particle; a fifth axis of length two for the two coordinates while it forms the differences), computes the
  contribution of every pair elementwise, sums over the particle axis, and stacks the two sums along a new last axis.
  Each stage is read here at an index built from its coordinates, down to the statement that the result array is
  `velocity` of the two arguments.
-/
import proofs.«122513_j83434034692735_1_alg».proof.Proof.RefReadP
import proofs.«122513_j83434034692735_1_alg».proof.Proof.Velocity
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.ReadP Idealize.ShloMosaic Idealize.ShloMosaic.ValueIdx Cert.VortexVelocity

/-- Two indices with the same coordinates, axis by axis (one tactic per rank). -/
local macro "idx_rfl2" : tactic => `(tactic| (refine funext fun a => Fin.ext ?_; match a with | ⟨0, _⟩ => rfl | ⟨1, _⟩ => rfl))
local macro "idx_rfl3" : tactic => `(tactic| (refine funext fun a => Fin.ext ?_; match a with | ⟨0, _⟩ => rfl | ⟨1, _⟩ => rfl | ⟨2, _⟩ => rfl))
local macro "idx_rfl4" : tactic => `(tactic| (refine funext fun a => Fin.ext ?_; match a with
  | ⟨0, _⟩ => rfl | ⟨1, _⟩ => rfl | ⟨2, _⟩ => rfl | ⟨3, _⟩ => rfl))
local macro "idx_rfl5" : tactic => `(tactic| (refine funext fun a => Fin.ext ?_; match a with
  | ⟨0, _⟩ => rfl | ⟨1, _⟩ => rfl | ⟨2, _⟩ => rfl | ⟨3, _⟩ => rfl | ⟨4, _⟩ => rfl))

/-! ## Layout steps, for any element type -/

section Layout
variable {α : Type}

/-- Column `j` of the particle table as a [2, 256] array: a unit-width slice with its unit axis dropped. -/
theorem column (x0 : S2x256x6.Idx → α) (off : Fin S2x256x6.rank → Nat) (hs : S2x256x6.Slices off S2x256x1)
    (hc : S2x256x1.ShapeCasts S2x256) (j : Fin 6) (h0 : off 0 = 0) (h1 : off 1 = 0) (h2 : off 2 = j.val)
    (b : Fin 2) (p : Fin 256) :
    shapeCast S2x256 (extractStridedSlice S2x256x1 off x0 hs) hc (ix2 b p) = x0 (ix3 b p j) := by
  refine (shapeCast_apply _ hc (ix2 b p) (ix3 b p 0)
    (by rw [Shape.rowMajor_val_three, Shape.rowMajor_val_two]; show (b.val * 256 + p.val) * 1 + 0 = b.val * 256 + p.val; omega)).trans ?_
  exact extractStridedSlice_apply off x0 hs (ix3 b p 0) (ix3 b p j) (fun a => match a with
    | ⟨0, _⟩ => by show b.val = off 0 + b.val; rw [h0]; omega
    | ⟨1, _⟩ => by show p.val = off 1 + p.val; rw [h1]; omega
    | ⟨2, _⟩ => by show j.val = off 2 + 0; rw [h2]; omega)

/-- A per-particle [2, 256] array placed on the (batch, 1, 1, particle) axes. -/
theorem on_particles (u : S2x256.Idx → α) (dims : Fin S2x256.rank → Fin S2x1x1x256.rank) (hb : S2x256.BroadcastsInDim S2x1x1x256 dims)
    (hd0 : dims 0 = 0) (hd1 : dims 1 = 3) (b : Fin 2) (p : Fin 256) :
    broadcastInDim S2x1x1x256 dims hb u (ix4 b 0 0 p) = u (ix2 b p) :=
  broadcastInDim_apply dims hb u (ix4 b 0 0 p) (ix2 b p) (fun a => match a with
    | ⟨0, _⟩ => by
        show b.val = if (2 : Nat) = 1 then 0 else ((ix4 b (0 : Fin 1) (0 : Fin 1) p : S2x1x1x256.Idx) (dims 0)).val
        rw [if_neg (by decide), hd0]
    | ⟨1, _⟩ => by
        show p.val = if (256 : Nat) = 1 then 0 else ((ix4 b (0 : Fin 1) (0 : Fin 1) p : S2x1x1x256.Idx) (dims 1)).val
        rw [if_neg (by decide), hd1])

/-- A (batch, 1, 1, particle) array spread over all the points. -/
theorem over_points (u : S2x1x1x256.Idx → α) (dims : Fin S2x1x1x256.rank → Fin S2x256x256x256.rank)
    (hb : S2x1x1x256.BroadcastsInDim S2x256x256x256 dims) (hd0 : dims 0 = 0) (hd3 : dims 3 = 3)
    (b : Fin 2) (H W p : Fin 256) :
    broadcastInDim S2x256x256x256 dims hb u (ix4 b H W p) = u (ix4 b 0 0 p) :=
  broadcastInDim_apply dims hb u (ix4 b H W p) (ix4 b 0 0 p) (fun a => match a with
    | ⟨0, _⟩ => by
        show b.val = if (2 : Nat) = 1 then 0 else ((ix4 b H W p : S2x256x256x256.Idx) (dims 0)).val
        rw [if_neg (by decide), hd0]
    | ⟨1, _⟩ => by
        show 0 = if (1 : Nat) = 1 then 0 else ((ix4 b H W p : S2x256x256x256.Idx) (dims 1)).val
        rw [if_pos rfl]
    | ⟨2, _⟩ => by
        show 0 = if (1 : Nat) = 1 then 0 else ((ix4 b H W p : S2x256x256x256.Idx) (dims 2)).val
        rw [if_pos rfl]
    | ⟨3, _⟩ => by
        show p.val = if (256 : Nat) = 1 then 0 else ((ix4 b H W p : S2x256x256x256.Idx) (dims 3)).val
        rw [if_neg (by decide), hd3])

/-- One coordinate of the five-axis difference array, as a four-axis array: a unit-width slice along the last axis
    with that axis dropped. -/
theorem coordinate (u : S2x256x256x256x2.Idx → α) (off : Fin S2x256x256x256x2.rank → Nat)
    (hs : S2x256x256x256x2.Slices off S2x256x256x256x1) (hc : S2x256x256x256x1.ShapeCasts S2x256x256x256) (k : Fin 2)
    (h0 : off 0 = 0) (h1 : off 1 = 0) (h2 : off 2 = 0) (h3 : off 3 = 0) (h4 : off 4 = k.val)
    (b : Fin 2) (H W p : Fin 256) :
    shapeCast S2x256x256x256 (extractStridedSlice S2x256x256x256x1 off u hs) hc (ix4 b H W p) = u (ix5 b H W p k) := by
  refine (shapeCast_apply _ hc (ix4 b H W p) (ix5 b H W p 0)
    (by rw [Shape.rowMajor_val_five, Shape.rowMajor_val_four]
        show ((((b.val * 256 + H.val) * 256 + W.val) * 256 + p.val) * 1 + 0) = ((b.val * 256 + H.val) * 256 + W.val) * 256 + p.val
        omega)).trans ?_
  exact extractStridedSlice_apply off u hs (ix5 b H W p 0) (ix5 b H W p k) (fun a => match a with
    | ⟨0, _⟩ => by show b.val = off 0 + b.val; rw [h0]; omega
    | ⟨1, _⟩ => by show H.val = off 1 + H.val; rw [h1]; omega
    | ⟨2, _⟩ => by show W.val = off 2 + W.val; rw [h2]; omega
    | ⟨3, _⟩ => by show p.val = off 3 + p.val; rw [h3]; omega
    | ⟨4, _⟩ => by show k.val = off 4 + 0; rw [h4]; omega)

end Layout

variable {F : FTy → Type} [FloatOps F]

/-! ## The particles' parameters -/

section Params
variable (x0 : (⟨S2x256x6, .f32⟩ : BufTy).Contents (Elt F))

theorem y_at (b : Fin 2) (p : Fin 256) : val_main_v1 (F := F) x0 (ix2 b p) = x0 (ix3 b p 0) := by
  unfold val_main_v1 val_main_v0; exact column x0 _ _ _ 0 rfl rfl rfl b p
theorem x_at (b : Fin 2) (p : Fin 256) : val_main_v3 (F := F) x0 (ix2 b p) = x0 (ix3 b p 1) := by
  unfold val_main_v3 val_main_v2; exact column x0 _ _ _ 1 rfl rfl rfl b p
theorem tau_at (b : Fin 2) (p : Fin 256) : val_main_v5 (F := F) x0 (ix2 b p) = x0 (ix3 b p 2) := by
  unfold val_main_v5 val_main_v4; exact column x0 _ _ _ 2 rfl rfl rfl b p
theorem sig_at (b : Fin 2) (p : Fin 256) : val_main_v7 (F := F) x0 (ix2 b p) = x0 (ix3 b p 3) := by
  unfold val_main_v7 val_main_v6; exact column x0 _ _ _ 3 rfl rfl rfl b p
theorem c_at (b : Fin 2) (p : Fin 256) : val_main_v9 (F := F) x0 (ix2 b p) = x0 (ix3 b p 4) := by
  unfold val_main_v9 val_main_v8; exact column x0 _ _ _ 4 rfl rfl rfl b p
theorem d_at (b : Fin 2) (p : Fin 256) : val_main_v11 (F := F) x0 (ix2 b p) = x0 (ix3 b p 5) := by
  unfold val_main_v11 val_main_v10; exact column x0 _ _ _ 5 rfl rfl rfl b p

/-- The particles' locations `(y, x)` stacked along a last axis of length two: entry `k` is column `k` of the table. -/
theorem loc_at (b : Fin 2) (p : Fin 256) (k : Fin 2) :
    val_main_v14 (F := F) x0 (ix3 b p k) = x0 (ix3 b p ⟨k.val, by have := k.isLt; omega⟩) := by
  unfold val_main_v14
  match k with
  | ⟨0, _⟩ =>
    refine (concatenate_pair_apply_left (t := S2x256x2) (s₁ := S2x256x1) (s₂ := S2x256x1) (2 : Fin 3) _ _ _ (ix3 b p (0 : Fin 2)) rfl (ix3 b p (0 : Fin 1))
      (fun a => by match a with | ⟨0, _⟩ => rfl | ⟨1, _⟩ => rfl | ⟨2, _⟩ => rfl)).trans ?_
    rw [val_main_v12_apply, show idx_main_v12 (ix3 b p (0 : Fin 1)) = ix2 b p from by idx_rfl2, y_at]
    rfl
  | ⟨1, _⟩ =>
    refine (concatenate_pair_apply_right (t := S2x256x2) (s₁ := S2x256x1) (s₂ := S2x256x1) (2 : Fin 3) _ _ _ (ix3 b p (1 : Fin 2)) rfl rfl (ix3 b p (0 : Fin 1))
      (fun a ha => by match a with | ⟨0, _⟩ => rfl | ⟨1, _⟩ => rfl | ⟨2, _⟩ => exact absurd rfl ha) rfl).trans ?_
    rw [val_main_v13_apply, show idx_main_v13 (ix3 b p (0 : Fin 1)) = ix2 b p from by idx_rfl2, x_at]
    rfl

end Params

/-! ## The parameters spread over the points -/

section Spread
variable (x0 : (⟨S2x256x6, .f32⟩ : BufTy).Contents (Elt Ideal))

theorem sig2_over (b : Fin 2) (H W p : Fin 256) :
    val_main_v28 (F := Ideal) x0 (ix4 b H W p) = x0 (ix3 b p 3) * x0 (ix3 b p 3) := by
  unfold val_main_v28 val_main_v23
  rw [over_points _ _ _ rfl rfl, on_particles _ _ _ rfl rfl, val_main_v22_apply, sig_at]
  rfl

theorem dsig2_over (b : Fin 2) (H W p : Fin 256) :
    val_main_v34 (F := Ideal) x0 (ix4 b H W p) = x0 (ix3 b p 5) * (x0 (ix3 b p 3) * x0 (ix3 b p 3)) := by
  unfold val_main_v34
  rw [over_points _ _ _ rfl rfl, val_main_v33_apply]
  unfold val_main_v25 val_main_v23
  rw [on_particles _ _ _ rfl rfl, on_particles _ _ _ rfl rfl, val_main_v22_apply, sig_at, d_at]
  rfl

theorem negc_over (b : Fin 2) (H W p : Fin 256) :
    val_main_v38 (F := Ideal) x0 (ix4 b H W p) = -(x0 (ix3 b p 4)) := by
  unfold val_main_v38
  rw [over_points _ _ _ rfl rfl, val_main_v37_apply]
  unfold val_main_v24
  rw [on_particles _ _ _ rfl rfl, c_at]
  rfl

theorem c_over (b : Fin 2) (H W p : Fin 256) :
    val_main_v41 (F := Ideal) x0 (ix4 b H W p) = x0 (ix3 b p 4) := by
  unfold val_main_v41 val_main_v24
  rw [over_points _ _ _ rfl rfl, on_particles _ _ _ rfl rfl, c_at]

theorem tau_over (b : Fin 2) (H W p : Fin 256) :
    val_main_v46 (F := Ideal) x0 (ix4 b H W p) = x0 (ix3 b p 2) := by
  unfold val_main_v46 val_main_v26
  rw [over_points _ _ _ rfl rfl, on_particles _ _ _ rfl rfl, tau_at]

theorem negOne_over (i : S2x256x256x256.Idx) : val_main_v31 (F := Ideal) i = negOne := by
  rw [val_main_v31_apply, val_main_cst_0_apply]
  rfl

end Spread

/-! ## The pairs -/

section Pairs
variable (x0 : (⟨S2x256x6, .f32⟩ : BufTy).Contents (Elt Ideal)) (x1 : (⟨S2x256x256x2, .f32⟩ : BufTy).Contents (Elt Ideal))

/-- Coordinate `k` of the difference between a point and a particle. -/
theorem diff_at (b : Fin 2) (H W p : Fin 256) (k : Fin 2) :
    val_main_v19 (F := Ideal) x0 x1 (ix5 b H W p k)
      = x1 (ix4 b H W k) - x0 (ix3 b p ⟨k.val, by have := k.isLt; omega⟩) := by
  rw [val_main_v19_apply, val_main_v17_apply, val_main_v18_apply,
    show idx_main_v17 (ix5 b H W p k) = ix5 b H W (0 : Fin 1) k from by idx_rfl5,
    show idx_main_v18 (ix5 b H W p k) = ix5 b (0 : Fin 1) (0 : Fin 1) p k from by idx_rfl5,
    val_main_v15_apply, val_main_v16_apply,
    show idx_main_v15 (ix5 b H W (0 : Fin 1) k) = ix4 b H W k from by idx_rfl4,
    show idx_main_v16 (ix5 b (0 : Fin 1) (0 : Fin 1) p k) = ix3 b p k from by idx_rfl3, loc_at]
  rfl

/-- The squared distance, as the reference sums it: from the zero literal, over the two coordinates. -/
theorem sq_at (b : Fin 2) (H W p : Fin 256) :
    val_main_v21 (F := Ideal) x0 x1 (ix4 b H W p)
      = Ideal.ofBits .f32 0x00000000#32
        + ((x1 (ix4 b H W 0) - x0 (ix3 b p 0)) * (x1 (ix4 b H W 0) - x0 (ix3 b p 0))
          + (x1 (ix4 b H W 1) - x0 (ix3 b p 1)) * (x1 (ix4 b H W 1) - x0 (ix3 b p 1))) := by
  rw [val_main_v21_apply, Fin.sum_univ_two,
    show idx_main_v21 (ix4 b H W p) 0 = ix5 b H W p (0 : Fin 2) from by idx_rfl5,
    show idx_main_v21 (ix4 b H W p) 1 = ix5 b H W p (1 : Fin 2) from by idx_rfl5,
    val_main_v20_apply, val_main_v20_apply, diff_at, diff_at]
  rfl

/-- A pair's strength. -/
theorem strength_at (b : Fin 2) (H W p : Fin 256) :
    val_main_v48 (F := Ideal) x0 x1 (ix4 b H W p)
      = strength (sqDist (x1 (ix4 b H W 0)) (x1 (ix4 b H W 1)) (x0 (ix3 b p 0)) (x0 (ix3 b p 1)))
          (x0 (ix3 b p 2)) (x0 (ix3 b p 3)) (x0 (ix3 b p 4)) (x0 (ix3 b p 5)) := by
  show val_main_v46 (F := Ideal) x0 (ix4 b H W p)
        * Ideal.exp (Ideal.div (-(val_main_v21 (F := Ideal) x0 x1 (ix4 b H W p))) (val_main_v28 (F := Ideal) x0 (ix4 b H W p)))
      * Ideal.div
          (Ideal.exp (val_main_v38 (F := Ideal) x0 (ix4 b H W p)
            * Ideal.exp (Ideal.div (val_main_v31 (F := Ideal) (ix4 b H W p) * val_main_v21 (F := Ideal) x0 x1 (ix4 b H W p))
                (val_main_v34 (F := Ideal) x0 (ix4 b H W p)))))
          (Ideal.sqrt (val_main_v21 (F := Ideal) x0 x1 (ix4 b H W p)
            + val_main_v41 (F := Ideal) x0 (ix4 b H W p)
              * Ideal.exp (Ideal.div (val_main_v31 (F := Ideal) (ix4 b H W p) * val_main_v21 (F := Ideal) x0 x1 (ix4 b H W p))
                  (val_main_v34 (F := Ideal) x0 (ix4 b H W p))))) = _
  rw [tau_over, sig2_over, negc_over, negOne_over, dsig2_over, c_over]
  exact strength_of_reference _ _ _ _ _ _ _ _ _ (sq_at x0 x1 b H W p)

theorem dy_at (b : Fin 2) (H W p : Fin 256) :
    val_main_v50 (F := Ideal) x0 x1 (ix4 b H W p) = x1 (ix4 b H W 0) - x0 (ix3 b p 0) := by
  unfold val_main_v50 val_main_v49
  rw [coordinate _ _ _ _ 0 rfl rfl rfl rfl rfl, diff_at]
  rfl

theorem dx_at (b : Fin 2) (H W p : Fin 256) :
    val_main_v52 (F := Ideal) x0 x1 (ix4 b H W p) = x1 (ix4 b H W 1) - x0 (ix3 b p 1) := by
  unfold val_main_v52 val_main_v51
  rw [coordinate _ _ _ _ 1 rfl rfl rfl rfl rfl, diff_at]
  rfl

/-- The first component: the sum over the particles of strength times `dx`. -/
theorem sum_zero (b : Fin 2) (H W : Fin 256) :
    val_main_v54 (F := Ideal) x0 x1 (ix3 b H W) = velocityAt x0 x1 b H W 0 := by
  rw [val_main_v54_apply, val_main_cst_1_apply]
  show Ideal.ofBits .f32 0x00000000#32 + _ = _
  rw [Ideal.ofBits_zero_f32, zero_add]
  unfold velocityAt
  refine Finset.sum_congr rfl fun p _ => ?_
  rw [show idx_main_v54 (ix3 b H W) p = ix4 b H W p from by idx_rfl4, contrib_zero]
  show val_main_v48 (F := Ideal) x0 x1 (ix4 b H W p) * val_main_v52 (F := Ideal) x0 x1 (ix4 b H W p) = _
  rw [strength_at, dx_at]

/-- The second component: the sum over the particles of strength times `-dy`. -/
theorem sum_one (b : Fin 2) (H W : Fin 256) :
    val_main_v57 (F := Ideal) x0 x1 (ix3 b H W) = velocityAt x0 x1 b H W 1 := by
  rw [val_main_v57_apply, val_main_cst_2_apply]
  show Ideal.ofBits .f32 0x00000000#32 + _ = _
  rw [Ideal.ofBits_zero_f32, zero_add]
  unfold velocityAt
  refine Finset.sum_congr rfl fun p _ => ?_
  rw [show idx_main_v57 (ix3 b H W) p = ix4 b H W p from by idx_rfl4, contrib_one]
  show val_main_v48 (F := Ideal) x0 x1 (ix4 b H W p) * -(val_main_v50 (F := Ideal) x0 x1 (ix4 b H W p)) = _
  rw [strength_at, dy_at]

/-- The result at an index. -/
theorem result_at (b : Fin 2) (H W : Fin 256) (k : Fin 2) :
    val_main_v60 (F := Ideal) x0 x1 (ix4 b H W k) = velocityAt x0 x1 b H W k := by
  unfold val_main_v60
  match k with
  | ⟨0, _⟩ =>
    refine (concatenate_pair_apply_left (t := S2x256x256x2) (s₁ := S2x256x256x1) (s₂ := S2x256x256x1) (3 : Fin 4) _ _ _ (ix4 b H W (0 : Fin 2)) rfl (ix4 b H W (0 : Fin 1))
      (fun a => by match a with | ⟨0, _⟩ => rfl | ⟨1, _⟩ => rfl | ⟨2, _⟩ => rfl | ⟨3, _⟩ => rfl)).trans ?_
    rw [val_main_v58_apply, show idx_main_v58 (ix4 b H W (0 : Fin 1)) = ix3 b H W from by idx_rfl3]
    exact sum_zero x0 x1 b H W
  | ⟨1, _⟩ =>
    refine (concatenate_pair_apply_right (t := S2x256x256x2) (s₁ := S2x256x256x1) (s₂ := S2x256x256x1) (3 : Fin 4) _ _ _ (ix4 b H W (1 : Fin 2)) rfl rfl (ix4 b H W (0 : Fin 1))
      (fun a ha => by match a with | ⟨0, _⟩ => rfl | ⟨1, _⟩ => rfl | ⟨2, _⟩ => rfl | ⟨3, _⟩ => exact absurd rfl ha) rfl).trans ?_
    rw [val_main_v59_apply, show idx_main_v59 (ix4 b H W (0 : Fin 1)) = ix3 b H W from by idx_rfl3]
    exact sum_one x0 x1 b H W

/-- THE REFERENCE'S RESULT is the velocity array of its two arguments. -/
theorem result_eq : val_main_v60 (F := Ideal) x0 x1 = velocity x0 x1 := by
  funext i
  obtain ⟨b, H, W, k, rfl⟩ : ∃ (b : Fin 2) (H W : Fin 256) (k : Fin 2), i = ix4 b H W k := ⟨i 0, i 1, i 2, i 3, eq_ix4 i⟩
  exact result_at x0 x1 b H W k

end Pairs

end Cert.ReferenceIdeal.RefValue

end
-- ==== Proof.lean ====
/-
  The velocity field of a set of vortex particles: a tiled kernel against a whole-array reference, equal on the
  extended reals.

  Both programs take a table of particles (for each of 2 batch entries, 256 particles of six parameters
  `y, x, tau, sig, c, d`) and a grid of points (2 × 256 × 256 points of two coordinates) and return, at every point,
  the two components of the velocity the batch entry's particles induce there: the sum over the particles of
  `strength · dx` and of `strength · (-dy)`, where `dy, dx` are the point's coordinates less the particle's,
  `s = dy² + dx²`, and `strength = tau · exp(-s / sig²) · exp(-(c · e)) / √(s + c · e)` with
  `e = exp((-1 · s) / (d · sig²))` (Proof/Velocity.lean states this function once, over the extended reals).

  The kernel works tile by tile: a grid of 2 × 16 × 2 points, each reading a 16 × 128 tile of points and its batch
  entry's particle table and writing the same tile of the result. Read at an index, what a grid point stores is the
  velocity at the point the tile index stands for (Proof/KernelBlock.lean); the 64 tiles cover the result array, so
  after the run the result array is the velocity array of the arguments (Proof/KernelArray.lean, over the generated
  frame run with the output array named). The reference forms all 2 × 256 × 256 × 256 (point, particle) pairs at once;
  read stage by stage at an index its result is the same array (Proof/RefValue.lean, over the run of the reference's
  65 host operations, Proof/RefRunP.lean, and the read-at-an-index lemmas of Proof/RefReadP.lean).

  The two spellings differ in three places, none of which needs a finite input: the kernel negates by subtracting
  from the zero literal where the reference negates; the reference's squared distance is a two-term sum started from
  the zero literal; and the reference multiplies by `-c` where the kernel negates the product with `c`. On the
  extended reals `0 - x = -x`, `0 + x = x` and `(-c) · e = -(c · e)` hold everywhere, so the precondition is never
  opened. The idealization rewrote nothing, so that the idealized kernel is the kernel's idealization holds trivially.
-/
import proofs.«122513_j83434034692735_1_alg».proof.Defs
import proofs.«122513_j83434034692735_1_alg».proof.Proof.Gen.Kernel
import proofs.«122513_j83434034692735_1_alg».proof.Proof.Gen.Kernel.Skeleton
import proofs.«122513_j83434034692735_1_alg».proof.Proof.Gen.Kernel.Launch
import proofs.«122513_j83434034692735_1_alg».proof.Proof.Gen.Kernel.Points
import proofs.«122513_j83434034692735_1_alg».proof.Proof.Gen.Kernel.Frame
import proofs.«122513_j83434034692735_1_alg».proof.Proof.Gen.KernelIdeal
import proofs.«122513_j83434034692735_1_alg».proof.Proof.Gen.KernelIdeal.Skeleton
import proofs.«122513_j83434034692735_1_alg».proof.Proof.Gen.KernelIdeal.Launch
import proofs.«122513_j83434034692735_1_alg».proof.Proof.Gen.KernelIdeal.Points
import proofs.«122513_j83434034692735_1_alg».proof.Proof.Gen.KernelIdeal.Frame
import proofs.«122513_j83434034692735_1_alg».proof.Proof.Gen.ReferenceIdeal
import proofs.«122513_j83434034692735_1_alg».proof.Proof.Gen.Pre_finite_inputs
import proofs.«122513_j83434034692735_1_alg».proof.Proof.Gen.KernelIdeal.Value
import proofs.«122513_j83434034692735_1_alg».proof.Proof.KernelArray
import proofs.«122513_j83434034692735_1_alg».proof.Proof.RefRunP
import proofs.«122513_j83434034692735_1_alg».proof.Proof.RefValue
import Idealize.ShloMosaic.Adequacy
import Idealize.ShloMosaic.Init

noncomputable section

namespace Cert.Proof

open Idealize.ShloMosaic Idealize.SL.Sem Cert.VortexVelocity

/-- The kernel as printed runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- And the reference: its run, with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments both programs end with the velocity array of those arguments. -/
theorem algebraic : Cert.algebraic_KernelIdeal_ReferenceIdeal := by
  intro m ρ m' ρ' _ hagree
  refine ⟨fun c => velocity (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
